-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S512x1024 : Shape := ⟨2, ![512, 1024]⟩
abbrev S512x4096 : Shape := ⟨2, ![512, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 15
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .bf16⟩
  | .hbm, ⟨8, _⟩ => ⟨S4096x4096, .bf16⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![2, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x4096.size a
  hwx2_0 : ∀ i : grid2.Coords, EltTy.bits .bf16 = 32 ∨ (Rect.block (s := S4096x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S4096x4096.size a
  hwx2_3 : ∀ i : grid2.Coords, EltTy.bits .f32 = 32 ∨ (Rect.block (s := S4096x4096) S2048x1024.size (cc2_transform_3 i) (hinb2_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.KRun.lean ====
/-
  The idealized kernel's program, run from the launch: every weakly fair execution ends, without a fault, with the
  result array holding what the third pipeline's write-backs leave of it, and with the seven argument arrays as
  launched. The program is three pipelines with a short stretch of host operations before the last; the buffer
  contents at the end are the fold of the four segments from the launch memory.
-/
import proofs.«149277_j83769042141907_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array named: at the end the result array holds the contents the last pipeline leaves in
    its output window's array, and each argument array what it held at launch. -/
theorem run_out : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- What the result array holds at the end is what the last pipeline's write-backs leave of its output window's array. -/
theorem out_eq_arrAt (c : Dev nD) :
    W4 m ρ c (Proc.devRef .tc main_v7) = (dat2 (V3 m ρ) c).arrAt 3 cfg2.N :=
  W4_arr m ρ c 3

end Cert.KernelIdeal.Val

end
-- ==== Proof.Cases.lean ====
/-
  The third pipeline's body, case by case, and one run of four points.

  The grid is 2 × 4 × 4 with the contraction axis innermost, so the output block (i, j) is visited at four
  consecutive points t − 3, …, t with t ≡ 3 (mod 4), and written back after the last. At the first of them the
  body stores zeros, reads them back, and adds the product of the point's blocks; at the next two it adds the
  product to what it finds; at the last it adds the product and then the bias row. So after the last point the
  block holds  ((((0 + P₀) + P₁) + P₂) + P₃) + bias,  each Pₖ the product of the two blocks of point t − 3 + k.
  For any float values and any contents `V` of the buffers when the pipeline is entered.
-/
import proofs.«149277_j83769042141907_2_alg».proof.Proof.Gen.KernelIdeal.Frame
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- A middle point: the body leaves the accumulator plus the product of the point's blocks. -/
theorem out_mid (c : Dev nD) (i : grid2.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : ¬cond2_0 i) (hc1 : ¬cond2_1 i)
    (x0 : Vec F S2048x1024 .bf16) (x1 : Vec F S1024x1024 .bf16) (x2 : Vec F S1x1024 .f32) (xo : Vec F S2048x1024 .f32) :
    out2_B_3 c i a3 h3 a4 h4 a5 h5 a6 h6 hc0 hc1 x0 x1 x2 xo = k2_pay2 xo x0 x1 := by
  unfold out2_B_3
  rw [View.read_writes_eq_canon _ _ _ (cover2_B_3 c i a3 h3 a4 h4 a5 h5 a6 h6 hc0 hc1 x0 x1 x2 xo)]
  unfold kernelRun2_B
  dsimp only
  rw [View.canon_unit_zero zeros2]
  simp only [View.readAt_eq_ld, h3.read_unread, h4.read_unread, h6.read_unread,
    View.ld_unit_zero (S := S2048x1024) zeros2, View.ld_unit_zero (S := S1024x1024) zeros2]

/-- The first point of a run: the body stores zeros, reads them back, and leaves zero plus the product. -/
theorem out_first (c : Dev nD) (i : grid2.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : cond2_0 i) (hc1 : ¬cond2_1 i)
    (x0 : Vec F S2048x1024 .bf16) (x1 : Vec F S1024x1024 .bf16) (x2 : Vec F S1x1024 .f32) :
    out2_A_3 c i a3 h3 a4 h4 a5 h5 a6 h6 hc0 hc1 x0 x1 x2 = k2_pay2 k2_pay1 x0 x1 := by
  unfold out2_A_3
  rw [View.read_writes_eq_canon _ _ _ (cover2_A_3 c i a3 h3 a4 h4 a5 h5 a6 h6 hc0 hc1 x0 x1 x2)]
  unfold kernelRun2_A
  dsimp only
  sl_unfold_words
  rw [View.canon_cons_unit_zero (S := S2048x1024) zeros2, View.readCov_unit_zero (S := S2048x1024) _ zeros2]
  simp only [View.readAt_eq_ld, h3.read_unread, h4.read_unread,
    View.ld_unit_zero (S := S2048x1024) zeros2, View.ld_unit_zero (S := S1024x1024) zeros2]

/-- The last point of a run: the body adds the product to the accumulator, reads that back, and adds the bias row. -/
theorem out_last (c : Dev nD) (i : grid2.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : ¬cond2_0 i) (hc1 : cond2_1 i)
    (x0 : Vec F S2048x1024 .bf16) (x1 : Vec F S1024x1024 .bf16) (x2 : Vec F S1x1024 .f32) (xo : Vec F S2048x1024 .f32) :
    out2_C_3 c i a3 h3 a4 h4 a5 h5 a6 h6 hc0 hc1 x0 x1 x2 xo = k2_pay3 (k2_pay2 xo x0 x1) x2 := by
  unfold out2_C_3
  rw [View.read_writes_eq_canon _ _ _ (cover2_C_3 c i a3 h3 a4 h4 a5 h5 a6 h6 hc0 hc1 x0 x1 x2 xo)]
  unfold kernelRun2_C
  dsimp only
  sl_unfold_words
  rw [View.canon_cons_unit_zero (S := S2048x1024) zeros2, View.readCov_unit_zero (S := S2048x1024) _ zeros2]
  simp only [View.readAt_eq_ld, h3.read_unread, h4.read_unread, h5.read_unread, h6.read_unread,
    View.ld_unit_zero (S := S2048x1024) zeros2, View.ld_unit_zero (S := S1024x1024) zeros2,
    View.ld_unit_zero (S := S1x1024) zeros2]

/-- The four points of one run, named from its last point t (t ≡ 3 mod 4). -/
abbrev back (t : Fin cfg2.N) (d : ℕ) : Fin cfg2.N := ⟨t.val - d, Nat.lt_of_le_of_lt (Nat.sub_le _ _) t.isLt⟩

/-- After the last point of a run the output's staging buffer holds the four products accumulated from zero in
    point order, plus the bias row. The blocks of the four points are named by the caller (`X d`, `W d` the blocks
    of the point d steps before the last, `B` the bias row's block at the last). -/
theorem run_of_four (c : Dev nD) (t : Fin cfg2.N) (h3 : t.val % 4 = 3)
    (X0 X1 X2 X3 : Vec F S2048x1024 .bf16) (W0 W1 W2 W3 : Vec F S1024x1024 .bf16) (B : Vec F S1x1024 .f32)
    (hX0 : iblk2 V c 0 t = X0) (hX1 : iblk2 V c 0 (back t 1) = X1) (hX2 : iblk2 V c 0 (back t 2) = X2)
    (hX3 : iblk2 V c 0 (back t 3) = X3)
    (hW0 : iblk2 V c 1 t = W0) (hW1 : iblk2 V c 1 (back t 1) = W1) (hW2 : iblk2 V c 1 (back t 2) = W2)
    (hW3 : iblk2 V c 1 (back t 3) = W3) (hB : iblk2 V c 2 t = B) :
    outsAt2 V c t.val t.isLt
      = k2_pay3 (k2_pay2 (k2_pay2 (k2_pay2 (k2_pay2 k2_pay1 X3 W3) X2 W2) X1 W1) X0 W0) B := by
  subst hX0 hX1 hX2 hX3 hW0 hW1 hW2 hW3 hB
  have hN : t.val < 32 := lt_of_lt_of_eq t.isLt (show cfg2.N = 32 from N_2)
  have e0 : outsAt2 V c t.val t.isLt = k2_pay3 (k2_pay2 (outsAt2 V c (back t 1).val (back t 1).isLt) (iblk2 V c 0 t) (iblk2 V c 1 t)) (iblk2 V c 2 t) :=
    (outsAt2_C V c t (by omega) h3).trans (out_last ..)
  have e1 : outsAt2 V c (back t 1).val (back t 1).isLt = k2_pay2 (outsAt2 V c (back t 2).val (back t 2).isLt) (iblk2 V c 0 (back t 1)) (iblk2 V c 1 (back t 1)) :=
    (outsAt2_B V c (back t 1) (by show ¬(t.val - 1) % 4 = 0; omega) (by show ¬(t.val - 1) % 4 = 3; omega)).trans (out_mid ..)
  have e2 : outsAt2 V c (back t 2).val (back t 2).isLt = k2_pay2 (outsAt2 V c (back t 3).val (back t 3).isLt) (iblk2 V c 0 (back t 2)) (iblk2 V c 1 (back t 2)) :=
    (outsAt2_B V c (back t 2) (by show ¬(t.val - 2) % 4 = 0; omega) (by show ¬(t.val - 2) % 4 = 3; omega)).trans (out_mid ..)
  have e3 : outsAt2 V c (back t 3).val (back t 3).isLt = k2_pay2 k2_pay1 (iblk2 V c 0 (back t 3)) (iblk2 V c 1 (back t 3)) :=
    (outsAt2_A V c (back t 3) (by show (t.val - 3) % 4 = 0; omega) (by show ¬(t.val - 3) % 4 = 3; omega)).trans (out_first ..)
  rw [e0, e1, e2, e3]

end Cert.KernelIdeal.Val

end
-- ==== Proof.Payloads.lean ====
/-
  The third pipeline's arithmetic read at an index, at the ideal values (floats are extended reals, every
  operation exact). For a [2048, 1024] accumulator block, a [2048, 1024] block of x and a [1024, 1024] block of
  the weights (both contracted along their second axis):
    the product step at (p, q) is  acc(p, q) + ∑ l < 1024, xs(p, l) · ws(q, l);
    the bias step at (p, q) is     acc(p, q) + b(0, q);
    the zero block is 0 everywhere.
-/
import proofs.«149277_j83769042141907_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen

/-- The product's dimension numbers: no batch axis, rows of the left operand by rows of the right, the second axis
    of each contracted. -/
local notation "DD" => dot_S2048x1024_S1024x1024_S2048x1024_1_1_0_0_n_n

theorem lhs_row (i : S2048x1024.Idx) (k : (DD).contr.Idx) : ((DD).lhsIdx i k 0).val = (i 0).val := by
  unfold DotDims.lhsIdx
  rw [dif_neg (show ¬(0 : Fin S2048x1024.rank) ∈ (DD).lhsBatch by decide),
    dif_pos (show (0 : Fin S2048x1024.rank) ∈ (DD).lhsNonContracting by decide)]
  rfl
theorem lhs_col (i : S2048x1024.Idx) (k : (DD).contr.Idx) : ((DD).lhsIdx i k 1).val = (k ⟨0, by decide⟩).val :=
  (DD).lhsIdx_val_of_single rfl i k
theorem rhs_row (i : S2048x1024.Idx) (k : (DD).contr.Idx) : ((DD).rhsIdx i k 0).val = (i 1).val := by
  unfold DotDims.rhsIdx
  rw [dif_neg (show ¬(0 : Fin S1024x1024.rank) ∈ (DD).rhsBatch by decide),
    dif_pos (show (0 : Fin S1024x1024.rank) ∈ (DD).rhsNonContracting by decide)]
  rfl
theorem rhs_col (i : S2048x1024.Idx) (k : (DD).contr.Idx) : ((DD).rhsIdx i k 1).val = (k ⟨0, by decide⟩).val :=
  (DD).rhsIdx_val_of_single rfl i k

/-- The matrix product into a zero accumulator, at (p, q): row p of the left block against row q of the right. -/
theorem product_apply (xs : Vec Ideal S2048x1024 .bf16) (ws : Vec Ideal S1024x1024 .bf16) (p : Fin 2048) (q : Fin 1024) :
    FloatOps.matmul (F := Ideal) (φ₁ := .bf16) (φ₂ := .bf16) DD none xs ws (constant (F := Ideal) S2048x1024 .f32 0x00000000#32) (ix2 p q)
      = ∑ l : Fin 1024, xs (ix2 p l) * ws (ix2 q l) := by
  rw [Ideal.matmul_constant_zero_apply, ← Equiv.sum_comp (contrEquiv1 DD 1024 rfl rfl).symm]
  refine Finset.sum_congr rfl fun l _ => ?_
  have hk := contrEquiv1_symm_val DD 1024 rfl rfl l
  have el : (DD).lhsIdx (ix2 p q) ((contrEquiv1 DD 1024 rfl rfl).symm l) = ix2 p l := funext fun a => Fin.ext (by
    match a with
    | ⟨0, _⟩ => exact lhs_row _ _
    | ⟨1, _⟩ => exact (lhs_col _ _).trans hk)
  have er : (DD).rhsIdx (ix2 p q) ((contrEquiv1 DD 1024 rfl rfl).symm l) = ix2 q l := funext fun a => Fin.ext (by
    match a with
    | ⟨0, _⟩ => exact rhs_row _ _
    | ⟨1, _⟩ => exact (rhs_col _ _).trans hk)
  rw [el, er]

/-- The product step at an index. -/
theorem step_apply (acc : Vec Ideal S2048x1024 .f32) (xs : Vec Ideal S2048x1024 .bf16) (ws : Vec Ideal S1024x1024 .bf16)
    (p : Fin 2048) (q : Fin 1024) :
    k2_pay2 (F := Ideal) acc xs ws (ix2 p q) = acc (ix2 p q) + ∑ l : Fin 1024, xs (ix2 p l) * ws (ix2 q l) := by
  unfold k2_pay2
  simp only [shapeCast_self]
  exact congrArg (acc (ix2 p q) + ·) (product_apply xs ws p q)

/-- The bias step at an index: the [1, 1024] row is repeated down the rows. -/
theorem bias_apply (acc : Vec Ideal S2048x1024 .f32) (b : Vec Ideal S1x1024 .f32) (p : Fin 2048) (q : Fin 1024) :
    k2_pay3 (F := Ideal) acc b (ix2 p q) = acc (ix2 p q) + b (ix2 (0 : Fin 1) q) := by
  unfold k2_pay3
  simp only [shapeCast_self]
  refine congrArg (acc (ix2 p q) + ·) ?_
  exact broadcastTo_apply b broadcasts_S1x1024_S2048x1024 (ix2 p q) (ix2 (0 : Fin 1) q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

/-- The zero block at an index. -/
theorem zero_apply (j : S2048x1024.Idx) : k2_pay1 (F := Ideal) j = 0 := by
  unfold k2_pay1
  show Ideal.ofBits .f32 0x00000000#32 = 0
  exact Ideal.ofBits_zero_f32

end Cert.KernelIdeal.Val

end
-- ==== Proof.LibBlockSum.lean ====
/-
  Regrouping a finite sum into consecutive blocks, in any commutative additive monoid (so also on the extended
  reals, where addition is commutative and associative although it is not cancellative).

  A kernel that contracts an axis of length 4 B in four steps of B terms, starting its accumulator from zero and
  adding one step's partial sum at a time, ends with (((0 + S0) + S1) + S2) + S3; this is the whole sum.
-/
import Mathlib.Algebra.BigOperators.Fin
import Mathlib.Logic.Equiv.Fin.Basic
import Mathlib.Tactic

namespace Cert.Lib.BlockSum

/-- A sum over n = 4 B indices is the sum of its four consecutive blocks of B, taken in order from zero. -/
theorem sum_four_blocks {M : Type} [AddCommMonoid M] {n B : ℕ} (hn : n = 4 * B) (f : Fin n → M) :
    ∑ k, f k
      = (((0 + ∑ j : Fin B, f ⟨j.val, by omega⟩) + ∑ j : Fin B, f ⟨B + j.val, by omega⟩)
          + ∑ j : Fin B, f ⟨2 * B + j.val, by omega⟩) + ∑ j : Fin B, f ⟨3 * B + j.val, by omega⟩ := by
  subst hn
  rw [zero_add, ← Equiv.sum_comp finProdFinEquiv f, Fintype.sum_prod_type, Fin.sum_univ_four]
  refine congrArg₂ (· + ·) (congrArg₂ (· + ·) (congrArg₂ (· + ·) ?_ ?_) ?_) ?_
  · exact Finset.sum_congr rfl fun j _ => congrArg f (Fin.ext (by show j.val + B * 0 = j.val; omega))
  · exact Finset.sum_congr rfl fun j _ => congrArg f (Fin.ext (by show j.val + B * 1 = B + j.val; omega))
  · exact Finset.sum_congr rfl fun j _ => congrArg f (Fin.ext (by show j.val + B * 2 = 2 * B + j.val; omega))
  · exact Finset.sum_congr rfl fun j _ => congrArg f (Fin.ext (by show j.val + B * 3 = 3 * B + j.val; omega))

end Cert.Lib.BlockSum
-- ==== Proof.Spec.lean ====
/-
  The layer both programs compute, as one function of the seven argument arrays over the extended reals.

  With  W(o, k) = w_mu(o, k) + log (1 + exp w_rho(o, k)) · eps_w(o, k)  and
        b(o)    = b_mu(o)    + log (1 + exp b_rho(o))    · eps_b(o),
  the result at (n, o) is  (∑ k < 4096, x(n, k) · W(o, k)) + b(o).

  The kernel contracts the 4096 terms in four runs of 1024, starting from zero and adding one run's partial sum
  at a time; addition on the extended reals is commutative and associative, so that is the whole sum.
-/
import Idealize.ShloMosaic.PureOps.Ideal
import Idealize.ShloMosaic.Lib.ValueIdx
import proofs.«149277_j83769042141907_2_alg».proof.Proof.LibBlockSum

noncomputable section

namespace Cert.Layer

open Idealize.ShloMosaic Idealize.ShloMosaic.ValueIdx

/-- The matrices' shape and the vectors' shape. -/
abbrev SQ : Shape := ⟨2, ![4096, 4096]⟩
abbrev SV : Shape := ⟨1, ![4096]⟩

/-- The sampled weight at an index. -/
def weight (wmu wrho eps : SQ.Idx → EReal) (i : SQ.Idx) : EReal :=
  wmu i + Ideal.log1p (Ideal.exp (wrho i)) * eps i

/-- The sampled bias at an index. -/
def shift (bmu brho eps : SV.Idx → EReal) (o : SV.Idx) : EReal :=
  bmu o + Ideal.log1p (Ideal.exp (brho o)) * eps o

/-- The layer's result at row n and column o, from a row of x, a row of the weights and the bias entry. -/
def entry (x W : SQ.Idx → EReal) (b : SV.Idx → EReal) (n o : Fin 4096) : EReal :=
  (∑ k : Fin 4096, x (ix2 n k) * W (ix2 o k)) + b (ix1 o)

/-- The layer as a whole array. -/
def layer (x wmu wrho : SQ.Idx → EReal) (bmu brho : SV.Idx → EReal) (epsw : SQ.Idx → EReal) (epsb : SV.Idx → EReal) :
    SQ.Idx → EReal :=
  fun i => entry x (weight wmu wrho epsw) (shift bmu brho epsb) ⟨(i 0).val, idx2_lt0 i⟩ ⟨(i 1).val, idx2_lt1 i⟩

/-- Four partial sums of 1024 terms, accumulated from zero in order, are the sum of all 4096 terms. -/
theorem four_runs (f : Fin 4096 → EReal) :
    (((0 + ∑ l : Fin 1024, f ⟨l.val, by omega⟩) + ∑ l : Fin 1024, f ⟨1024 + l.val, by omega⟩)
        + ∑ l : Fin 1024, f ⟨2 * 1024 + l.val, by omega⟩) + ∑ l : Fin 1024, f ⟨3 * 1024 + l.val, by omega⟩
      = ∑ k : Fin 4096, f k :=
  (Cert.Lib.BlockSum.sum_four_blocks (n := 4096) (B := 1024) rfl f).symm

end Cert.Layer

end
-- ==== Proof.Gemm.lean ====
/-
  The third pipeline, read as a whole array at the ideal values.

  Point t = 16 i + 4 j + k of the 2 × 4 × 4 grid holds rows 2048 i … of x against rows 1024 j … of the weights,
  columns 1024 k … of both, and the bias entries 1024 j …; the output block is (i, j). A run's last point t (k = 3)
  leaves at (p, q) of the block
      ((((0 + S₀) + S₁) + S₂) + S₃) + bias(1024 j + q),   Sₖ = ∑ l < 1024, x(n, 1024 k + l) · W(o, 1024 k + l),
  with n = 2048 i + p and o = 1024 j + q. Addition on the extended reals is commutative and associative, so the four
  partial sums accumulated from zero are the whole contraction ∑ k < 4096, x(n, k) · W(o, k). The eight output blocks
  are each written back once, after their run's last point, and tile the result array.
  For any contents `V` of the buffers when the pipeline is entered.
-/
import proofs.«149277_j83769042141907_2_alg».proof.Proof.Cases
import proofs.«149277_j83769042141907_2_alg».proof.Proof.Payloads
import proofs.«149277_j83769042141907_2_alg».proof.Proof.Spec

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The bias row [1, 4096] as a vector [4096]. -/
def rowOf (B : S1x4096.Idx → EReal) : Cert.Layer.SV.Idx → EReal :=
  fun o => B (ix2 (0 : Fin 1) (⟨(o 0).val, (o 0).isLt⟩ : Fin 4096))

/-- What the pipeline leaves in the result array, from x narrowed, the sampled weights and the bias row as it finds them. -/
def gemm (X W : S4096x4096.Idx → EReal) (B : S1x4096.Idx → EReal) : S4096x4096.Idx → EReal :=
  fun i => Cert.Layer.entry X W (rowOf B) ⟨(i 0).val, idx2_lt0 i⟩ ⟨(i 1).val, idx2_lt1 i⟩

/-- Point t = 16 i + 4 j + k has blocks (i, k) of x, (j, k) of the weights, (0, j) of the bias row and (i, j) of the result. -/
theorem index2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

/-- Rows 2048 i … and columns 1024 k … of a [4096, 4096] array as a [2048, 1024] block. -/
def xrows (X : S4096x4096.Idx → EReal) (i k : ℕ) (hi : i < 2) (hk : k < 4) : Vec Ideal S2048x1024 .bf16 :=
  fun y => X (ix2 (⟨2048 * i + (y 0).val, by have : (y 0).val < 2048 := (y 0).isLt; omega⟩ : Fin 4096)
    (⟨1024 * k + (y 1).val, by have : (y 1).val < 1024 := (y 1).isLt; omega⟩ : Fin 4096))

/-- Rows 1024 j … and columns 1024 k … of a [4096, 4096] array as a [1024, 1024] block. -/
def wrows (W : S4096x4096.Idx → EReal) (j k : ℕ) (hj : j < 4) (hk : k < 4) : Vec Ideal S1024x1024 .bf16 :=
  fun y => W (ix2 (⟨1024 * j + (y 0).val, by have : (y 0).val < 1024 := (y 0).isLt; omega⟩ : Fin 4096)
    (⟨1024 * k + (y 1).val, by have : (y 1).val < 1024 := (y 1).isLt; omega⟩ : Fin 4096))

/-- Entries 1024 j … of a [1, 4096] row as a [1, 1024] block. -/
def brow (B : S1x4096.Idx → EReal) (j : ℕ) (hj : j < 4) : Vec Ideal S1x1024 .f32 :=
  fun y => B (ix2 (0 : Fin 1) (⟨1024 * j + (y 1).val, by have : (y 1).val < 1024 := (y 1).isLt; omega⟩ : Fin 4096))

theorem xblk (c : Dev nD) (s : Fin cfg2.N) (i k : ℕ) (hi : i < 2) (hk : k < 4) (hsi : s.val / 16 = i) (hsk : s.val % 4 = k) :
    iblk2 V c 0 s = xrows (V c main_v1) i k hi hk := by
  obtain ⟨a0, a1, -⟩ := index2 s
  funext y
  unfold iblk2 xrows
  rw [View.read_apply]
  show V c main_v1 (((cfg2.win 0).blk s).view.emb y) = V c main_v1 _
  refine congrArg (V c main_v1) (funext fun a => Fin.ext ?_)
  match a with
  | ⟨0, _⟩ => show win2_0.index s (0 : Fin 2) * 2048 + 1 * (y 0).val = 2048 * i + (y 0).val; omega
  | ⟨1, _⟩ => show win2_0.index s (1 : Fin 2) * 1024 + 1 * (y 1).val = 1024 * k + (y 1).val; omega

theorem wblk (c : Dev nD) (s : Fin cfg2.N) (j k : ℕ) (hj : j < 4) (hk : k < 4) (hsj : s.val / 4 % 4 = j) (hsk : s.val % 4 = k) :
    iblk2 V c 1 s = wrows (V c main_v0) j k hj hk := by
  obtain ⟨-, -, a0, a1, -⟩ := index2 s
  funext y
  unfold iblk2 wrows
  rw [View.read_apply]
  show V c main_v0 (((cfg2.win 1).blk s).view.emb y) = V c main_v0 _
  refine congrArg (V c main_v0) (funext fun a => Fin.ext ?_)
  match a with
  | ⟨0, _⟩ => show win2_1.index s (0 : Fin 2) * 1024 + 1 * (y 0).val = 1024 * j + (y 0).val; omega
  | ⟨1, _⟩ => show win2_1.index s (1 : Fin 2) * 1024 + 1 * (y 1).val = 1024 * k + (y 1).val; omega

theorem bblk (c : Dev nD) (s : Fin cfg2.N) (j : ℕ) (hj : j < 4) (hsj : s.val / 4 % 4 = j) :
    iblk2 V c 2 s = brow (V c main_v6) j hj := by
  obtain ⟨-, -, -, -, a0, a1, -⟩ := index2 s
  funext y
  unfold iblk2 brow
  rw [View.read_apply]
  show V c main_v6 (((cfg2.win 2).blk s).view.emb y) = V c main_v6 _
  refine congrArg (V c main_v6) (funext fun a => Fin.ext ?_)
  have hy0 : (y 0).val < 1 := (y 0).isLt
  match a with
  | ⟨0, _⟩ => show win2_2.index s (0 : Fin 2) * 1 + 1 * (y 0).val = 0; omega
  | ⟨1, _⟩ => show win2_2.index s (1 : Fin 2) * 1024 + 1 * (y 1).val = 1024 * j + (y 1).val; omega

/-- One run's partial sum is the run's 1024 terms of the whole contraction. -/
theorem partial_sum (X W : S4096x4096.Idx → EReal) (i j k : ℕ) (hi : i < 2) (hj : j < 4) (hk : k < 4) (p : Fin 2048) (q : Fin 1024)
    (n o : Fin 4096) (hn : n.val = 2048 * i + p.val) (ho : o.val = 1024 * j + q.val)
    (idx : Fin 1024 → Fin 4096) (hidx : ∀ l, (idx l).val = 1024 * k + l.val) :
    ∑ l : Fin 1024, xrows X i k hi hk (ix2 p l) * wrows W j k hj hk (ix2 q l)
      = ∑ l : Fin 1024, X (ix2 n (idx l)) * W (ix2 o (idx l)) := by
  refine Finset.sum_congr rfl fun l _ => ?_
  show X (ix2 _ _) * W (ix2 _ _) = X (ix2 n (idx l)) * W (ix2 o (idx l))
  have e1 : (⟨2048 * i + p.val, by omega⟩ : Fin 4096) = n := Fin.ext hn.symm
  have e2 : (⟨1024 * j + q.val, by omega⟩ : Fin 4096) = o := Fin.ext ho.symm
  have e3 : (⟨1024 * k + l.val, by have := l.isLt; omega⟩ : Fin 4096) = idx l := Fin.ext (hidx l).symm
  exact congrArg₂ (· * ·) (congrArg X (congrArg₂ ix2 e1 e3)) (congrArg W (congrArg₂ ix2 e2 e3))

/-- The block a run's last point leaves, at (p, q), is the result's entry at (2048 i + p, 1024 j + q). -/
theorem block_entry (X W : S4096x4096.Idx → EReal) (B : S1x4096.Idx → EReal) (i j : ℕ) (hi : i < 2) (hj : j < 4)
    (p : Fin 2048) (q : Fin 1024)
    (z : S4096x4096.Idx) (hz0 : (z 0).val = 2048 * i + p.val) (hz1 : (z 1).val = 1024 * j + q.val) :
    k2_pay3 (F := Ideal) (k2_pay2 (k2_pay2 (k2_pay2 (k2_pay2 k2_pay1
        (xrows X i 0 hi (by decide)) (wrows W j 0 hj (by decide)))
        (xrows X i 1 hi (by decide)) (wrows W j 1 hj (by decide)))
        (xrows X i 2 hi (by decide)) (wrows W j 2 hj (by decide)))
        (xrows X i 3 hi (by decide)) (wrows W j 3 hj (by decide))) (brow B j hj) (ix2 p q)
      = gemm X W B z := by
  rw [bias_apply, step_apply, step_apply, step_apply, step_apply, zero_apply]
  unfold gemm Cert.Layer.entry
  rw [partial_sum X W i j 0 hi hj (by decide) p q ⟨(z 0).val, idx2_lt0 z⟩ ⟨(z 1).val, idx2_lt1 z⟩ hz0 hz1
      (fun l => ⟨l.val, by have := l.isLt; omega⟩) (fun l => by show l.val = 1024 * 0 + l.val; omega),
    partial_sum X W i j 1 hi hj (by decide) p q ⟨(z 0).val, idx2_lt0 z⟩ ⟨(z 1).val, idx2_lt1 z⟩ hz0 hz1
      (fun l => ⟨1024 + l.val, by have := l.isLt; omega⟩) (fun l => by show 1024 + l.val = 1024 * 1 + l.val; omega),
    partial_sum X W i j 2 hi hj (by decide) p q ⟨(z 0).val, idx2_lt0 z⟩ ⟨(z 1).val, idx2_lt1 z⟩ hz0 hz1
      (fun l => ⟨2 * 1024 + l.val, by have := l.isLt; omega⟩) (fun l => by show 2 * 1024 + l.val = 1024 * 2 + l.val; omega),
    partial_sum X W i j 3 hi hj (by decide) p q ⟨(z 0).val, idx2_lt0 z⟩ ⟨(z 1).val, idx2_lt1 z⟩ hz0 hz1
      (fun l => ⟨3 * 1024 + l.val, by have := l.isLt; omega⟩) (fun l => by show 3 * 1024 + l.val = 1024 * 3 + l.val; omega)]
  refine congrArg₂ (· + ·)
    (Cert.Layer.four_runs (fun kk : Fin 4096 => X (ix2 (⟨(z 0).val, idx2_lt0 z⟩ : Fin 4096) kk) * W (ix2 (⟨(z 1).val, idx2_lt1 z⟩ : Fin 4096) kk))) ?_
  show B (ix2 (0 : Fin 1) _) = B (ix2 (0 : Fin 1) _)
  exact congrArg B (congrArg₂ ix2 rfl (Fin.ext hz1.symm))

/-- What the last point of a run writes back is its block of the result. -/
theorem flushed2 (c : Dev nD) (t : Fin cfg2.N) (hf : (cfg2.win 3).flush t = true) :
    (dat2 V c).flushed 3 t
      = ((cfg2.win 3).blk t).view.read (Elt Ideal) (gemm (V c main_v1) (V c main_v0) (V c main_v6)) := by
  have h3 : t.val % 4 = 3 := (flush2_3 t).mp hf
  have hN : t.val < 32 := lt_of_lt_of_eq t.isLt (show cfg2.N = 32 from N_2)
  have hi : t.val / 16 < 2 := by omega
  have hj : t.val / 4 % 4 < 4 := by omega
  obtain ⟨-, -, -, -, -, -, d0, d1⟩ := index2 t
  show (cfg2.win 3).cut (grid2.coords t) ((dat2 V c).after 3 t) = _
  rw [after2_3, run_of_four V c t h3
    (xrows (V c main_v1) (t.val / 16) 3 hi (by decide)) (xrows (V c main_v1) (t.val / 16) 2 hi (by decide))
    (xrows (V c main_v1) (t.val / 16) 1 hi (by decide)) (xrows (V c main_v1) (t.val / 16) 0 hi (by decide))
    (wrows (V c main_v0) (t.val / 4 % 4) 3 hj (by decide)) (wrows (V c main_v0) (t.val / 4 % 4) 2 hj (by decide))
    (wrows (V c main_v0) (t.val / 4 % 4) 1 hj (by decide)) (wrows (V c main_v0) (t.val / 4 % 4) 0 hj (by decide))
    (brow (V c main_v6) (t.val / 4 % 4) hj)
    (xblk V c t _ 3 hi (by decide) rfl h3)
    (xblk V c (back t 1) _ 2 hi (by decide) (by show (t.val - 1) / 16 = t.val / 16; omega) (by show (t.val - 1) % 4 = 2; omega))
    (xblk V c (back t 2) _ 1 hi (by decide) (by show (t.val - 2) / 16 = t.val / 16; omega) (by show (t.val - 2) % 4 = 1; omega))
    (xblk V c (back t 3) _ 0 hi (by decide) (by show (t.val - 3) / 16 = t.val / 16; omega) (by show (t.val - 3) % 4 = 0; omega))
    (wblk V c t _ 3 hj (by decide) rfl h3)
    (wblk V c (back t 1) _ 2 hj (by decide) (by show (t.val - 1) / 4 % 4 = t.val / 4 % 4; omega) (by show (t.val - 1) % 4 = 2; omega))
    (wblk V c (back t 2) _ 1 hj (by decide) (by show (t.val - 2) / 4 % 4 = t.val / 4 % 4; omega) (by show (t.val - 2) % 4 = 1; omega))
    (wblk V c (back t 3) _ 0 hj (by decide) (by show (t.val - 3) / 4 % 4 = t.val / 4 % 4; omega) (by show (t.val - 3) % 4 = 0; omega))
    (bblk V c t _ hj rfl)]
  funext y
  have hp : (y 0).val < 2048 := (y 0).isLt
  have hq : (y 1).val < 1024 := (y 1).isLt
  obtain ⟨p, q, rfl⟩ : ∃ (p : Fin 2048) (q : Fin 1024), y = ix2 p q :=
    ⟨⟨(y 0).val, hp⟩, ⟨(y 1).val, hq⟩, funext fun a => by match a with | ⟨0, _⟩ => rfl | ⟨1, _⟩ => rfl⟩
  rw [View.read_apply]
  exact block_entry (V c main_v1) (V c main_v0) (V c main_v6) _ _ hi hj p q _
    (by show win2_3.index t (0 : Fin 2) * 2048 + 1 * p.val = _; omega)
    (by show win2_3.index t (1 : Fin 2) * 1024 + 1 * q.val = _; omega)

/-- An index of the result array is in point t's block iff each coordinate is in the block's range on its axis. -/
theorem mem_blk2 (t : Fin cfg2.N) (z : S4096x4096.Idx) :
    z ∈ ((cfg2.win 3).blk t).view.set ↔ ∀ a : Fin 2, win2_3.index t a * S2048x1024.size a ≤ (z a).val ∧ (z a).val < win2_3.index t a * S2048x1024.size a + S2048x1024.size a := by
  show z ∈ ((View.whole main_v7).slice (win2_3.rect t)).set ↔ _
  rw [View.set_slice_whole, Rect.mem_set_unit]
  exact Iff.rfl

/-- Every index of the result array is in the block written back after the last point of the run its coordinates name. -/
theorem cover2 (z : S4096x4096.Idx) :
    ∃ t : Fin cfg2.N, (cfg2.win 3).flush t = true ∧ z ∈ ((cfg2.win 3).blk t).view.set := by
  have hz0 : (z 0).val < 4096 := (z 0).isLt
  have hz1 : (z 1).val < 4096 := (z 1).isLt
  have hN : cfg2.N = 32 := N_2
  let t : Fin cfg2.N := ⟨16 * ((z 0).val / 2048) + 4 * ((z 1).val / 1024) + 3, by rw [hN]; omega⟩
  have ht : t.val = 16 * ((z 0).val / 2048) + 4 * ((z 1).val / 1024) + 3 := rfl
  obtain ⟨-, -, -, -, -, -, d0, d1⟩ := index2 t
  refine ⟨t, (flush2_3 t).mpr (by omega), ?_⟩
  rw [mem_blk2]
  intro a
  match a with
  | ⟨0, _⟩ => show win2_3.index t (0 : Fin 2) * 2048 ≤ (z 0).val ∧ (z 0).val < win2_3.index t (0 : Fin 2) * 2048 + 2048; omega
  | ⟨1, _⟩ => show win2_3.index t (1 : Fin 2) * 1024 ≤ (z 1).val ∧ (z 1).val < win2_3.index t (1 : Fin 2) * 1024 + 1024; omega

/-- The result array after the third pipeline. -/
theorem arr2 (c : Dev nD) :
    (dat2 V c).arrAt 3 cfg2.N = gemm (V c main_v1) (V c main_v0) (V c main_v6) :=
  (dat2 V c).arrAt_eq_of_cover 3 (gemm (V c main_v1) (V c main_v0) (V c main_v6)) (flushed2 V c) cover2

end Cert.KernelIdeal.Val

end
-- ==== Proof.Sampled.lean ====
/-
  The first two pipelines, read as whole arrays.

  Pipeline 0 walks the [4096, 4096] weight arrays in 8 × 4 blocks of [512, 1024]; at each block it stores
  w_mu + log1p (exp w_rho) · eps_w, narrowed to bf16. Every point writes its own block back and the 32 blocks tile
  the array, so the array it leaves is that expression of the three whole arrays, index by index.
  Pipeline 1 walks x in 8 row blocks of [512, 4096] and stores each narrowed to bf16; the array it leaves is x
  narrowed, index by index.
  Both are stated at any contents `V` of the buffers when the pipeline is entered, and for any float values.
-/
import proofs.«149277_j83769042141907_2_alg».proof.Proof.Gen.KernelIdeal.Frame
import Idealize.ShloMosaic.Lib.Pipeline.Value

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-! ## Pipeline 0: the sampled weights -/

/-- The sampled weight at an index: the mean plus softplus of rho times the noise, narrowed to bf16. -/
abbrev sampled (wmu wrho eps : S4096x4096.Idx → Elt F .f32) : S4096x4096.Idx → Elt F .bf16 :=
  fun i => FloatOps.truncf .bf16 bitsLt_bf16_f32
    (FloatOps.addf (wmu i) (FloatOps.mulf (FloatOps.log1p (FloatOps.exp (wrho i))) (eps i)))

/-- Point t = 4 i + j of the 8 × 4 grid has block (i, j) in all four windows. -/
theorem index0 : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4 :=
  (by decide +kernel : ∀ t : Fin grid0.N, _)

/-- What point t writes back is block t of the sampled weights of the arrays as the pipeline finds them. -/
theorem flushed0 (c : Dev nD) (t : Fin cfg0.N) :
    (dat0 V c).flushed 3 t
      = ((cfg0.win 3).blk t).view.read (Elt F) (sampled (V c main_arg1) (V c main_arg2) (V c main_arg5)) := by
  show (cfg0.win 3).cut (grid0.coords t) ((dat0 V c).after 3 t) = _
  rw [after0_3]
  unfold out0_3
  rw [View.canon_unit_zero zero_offsets]
  simp only [View.ld_unit_zero (S := S512x1024) zero_offsets]
  obtain ⟨a0, a1, b0, b1, c0, c1, d0, d1⟩ := index0 t
  funext j
  show FloatOps.truncf .bf16 bitsLt_bf16_f32 (FloatOps.addf (V c main_arg1 (((cfg0.win 0).blk t).view.emb j))
      (FloatOps.mulf (FloatOps.log1p (FloatOps.exp (V c main_arg2 (((cfg0.win 1).blk t).view.emb j))))
        (V c main_arg5 (((cfg0.win 2).blk t).view.emb j))))
    = FloatOps.truncf .bf16 bitsLt_bf16_f32 (FloatOps.addf (V c main_arg1 (((cfg0.win 3).blk t).view.emb j))
      (FloatOps.mulf (FloatOps.log1p (FloatOps.exp (V c main_arg2 (((cfg0.win 3).blk t).view.emb j))))
        (V c main_arg5 (((cfg0.win 3).blk t).view.emb j))))
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * (j 1).val = win0_3.index t (1 : Fin 2) * 1024 + 1 * (j 1).val; omega
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 1024 + 1 * (j 1).val = win0_3.index t (1 : Fin 2) * 1024 + 1 * (j 1).val; omega
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 1024 + 1 * (j 1).val = win0_3.index t (1 : Fin 2) * 1024 + 1 * (j 1).val; omega
  rw [h0, h1, h2]

/-- An index of the weight array is in point t's block iff each coordinate is in the block's range on its axis. -/
theorem mem_blk0 (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- Every index of the weight array is in the block of the point its coordinates name. -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 32 := N_0
  let t : Fin cfg0.N := ⟨4 * ((i 0).val / 512) + (i 1).val / 1024, by rw [hN]; omega⟩
  have ht : t.val = 4 * ((i 0).val / 512) + (i 1).val / 1024 := rfl
  obtain ⟨a0, a1, b0, b1, c0, c1, d0, d1⟩ := index0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The weight array after pipeline 0: the sampled weights of the arrays it found. -/
theorem arr0 (c : Dev nD) :
    (dat0 V c).arrAt 3 cfg0.N = sampled (V c main_arg1) (V c main_arg2) (V c main_arg5) :=
  (dat0 V c).arrAt_eq_of_cover 3 (sampled (V c main_arg1) (V c main_arg2) (V c main_arg5))
    (fun t _ => flushed0 V c t) cover0

/-! ## Pipeline 1: x narrowed -/

/-- An array narrowed to bf16, index by index. -/
abbrev narrowed (x : S4096x4096.Idx → Elt F .f32) : S4096x4096.Idx → Elt F .bf16 :=
  fun i => FloatOps.truncf .bf16 bitsLt_bf16_f32 (x i)

/-- Point t of the 8-point grid has row block t in both windows. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is row block t of x narrowed. -/
theorem flushed1 (c : Dev nD) (t : Fin cfg1.N) :
    (dat1 V c).flushed 1 t = ((cfg1.win 1).blk t).view.read (Elt F) (narrowed (V c main_arg0)) := by
  show (cfg1.win 1).cut (grid1.coords t) ((dat1 V c).after 1 t) = _
  rw [after1_1]
  unfold out1_1
  rw [View.canon_unit_zero zero_offsets]
  simp only [View.ld_unit_zero (S := S512x4096) zero_offsets]
  obtain ⟨a0, a1, b0, b1⟩ := index1 t
  funext j
  show FloatOps.truncf .bf16 bitsLt_bf16_f32 (V c main_arg0 (((cfg1.win 0).blk t).view.emb j))
    = FloatOps.truncf .bf16 bitsLt_bf16_f32 (V c main_arg0 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

theorem mem_blk1 (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

theorem cover1 (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  have hN : cfg1.N = 8 := N_1
  let t : Fin cfg1.N := ⟨(i 0).val / 512, by rw [hN]; omega⟩
  have ht : t.val = (i 0).val / 512 := rfl
  obtain ⟨a0, a1, b0, b1⟩ := index1 t
  refine ⟨t, flush1_1 t, ?_⟩
  rw [mem_blk1]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- The array pipeline 1 leaves: x narrowed. -/
theorem arr1 (c : Dev nD) : (dat1 V c).arrAt 1 cfg1.N = narrowed (V c main_arg0) :=
  (dat1 V c).arrAt_eq_of_cover 1 (narrowed (V c main_arg0)) (fun t _ => flushed1 V c t) cover1

end Cert.KernelIdeal.Val

end
-- ==== Proof.Entry.lean ====
/-
  What the third pipeline finds in its three operand arrays, traced back to the launch memory.

  Its x operand is what the second pipeline left: x narrowed. Its weight operand is what the first pipeline left:
  the sampled weights (the second pipeline and the host operations do not touch that array). Its bias operand is
  the host's b_mu + log1p (exp b_rho) · eps_b, reshaped from [4096] to [1, 4096]. No pipeline and no host
  operation writes an argument array, so each of these is a function of the arguments as launched. For any float values.
-/
import proofs.«149277_j83769042141907_2_alg».proof.Proof.Sampled
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The weight operand: the sampled weights of the launch arguments. -/
theorem entry_weights (c : Dev nD) :
    V3 m ρ c main_v0 = sampled (m ((c : Thread nD τ).loc main_arg1)) (m ((c : Thread nD τ).loc main_arg2))
      (m ((c : Thread nD τ).loc main_arg5)) :=
  calc V3 m ρ c main_v0
    _ = W2 m ρ c (Proc.devRef .tc main_v0) := by
        show StableHlo.after hostOps2 (W2 m ρ c) (Proc.devRef .tc main_v0) = _
        dsimp only [hostOps2]
        after_results
    _ = W1 m ρ c (Proc.devRef .tc main_v0) := W2_of_ne m ρ c main_v0 (by decide)
    _ = (dat0 (V0 m ρ) c).arrAt 3 cfg0.N := W1_arr m ρ c 3
    _ = sampled (V0 m ρ c main_arg1) (V0 m ρ c main_arg2) (V0 m ρ c main_arg5) := arr0 (V0 m ρ) c
    _ = _ := rfl

/-- The x operand: x as launched, narrowed. -/
theorem entry_x (c : Dev nD) : V3 m ρ c main_v1 = narrowed (m ((c : Thread nD τ).loc main_arg0)) :=
  calc V3 m ρ c main_v1
    _ = W2 m ρ c (Proc.devRef .tc main_v1) := by
        show StableHlo.after hostOps2 (W2 m ρ c) (Proc.devRef .tc main_v1) = _
        dsimp only [hostOps2]
        after_results
    _ = (dat1 (V1 m ρ) c).arrAt 1 cfg1.N := W2_arr m ρ c 1
    _ = narrowed (V1 m ρ c main_arg0) := arr1 (V1 m ρ) c
    _ = narrowed (V0 m ρ c main_arg0) := congrArg narrowed (W1_of_ne m ρ c main_arg0 (by decide))
    _ = _ := rfl

/-- An argument vector is as launched when the host stretch starts. -/
theorem arg_kept (c : Dev nD) (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (W1_of_ne m ρ c b h0)

/-- The bias operand: the host's sampled bias of the launch arguments, as a [1, 4096] row. -/
theorem entry_bias (c : Dev nD) :
    V3 m ρ c main_v6 = shapeCast S1x4096 (addf (m ((c : Thread nD τ).loc main_arg3))
      (mulf (Host.log1p (Host.exp (m ((c : Thread nD τ).loc main_arg4)))) (m ((c : Thread nD τ).loc main_arg6))))
      shapeCasts_S4096_S1x4096 := by
  show StableHlo.after hostOps2 (W2 m ρ c) (Proc.devRef .tc main_v6) = _
  dsimp only [hostOps2]
  after_results
  rw [arg_kept m ρ c main_arg3 (by decide) (by decide), arg_kept m ρ c main_arg4 (by decide) (by decide),
    arg_kept m ρ c main_arg6 (by decide) (by decide)]
  rfl

end Cert.KernelIdeal.Val

end
-- ==== Proof.KValue.lean ====
/-
  The idealized kernel's result array, as the layer of the launch arguments.

  At the ideal values narrowing to bf16 is the identity, so the third pipeline's operands are x itself, the sampled
  weights  w_mu + log (1 + exp w_rho) · eps_w,  and the row of sampled biases; what it leaves in the result array is
  the layer of the seven arguments.
-/
import proofs.«149277_j83769042141907_2_alg».proof.Proof.KRun
import proofs.«149277_j83769042141907_2_alg».proof.Proof.Gemm
import proofs.«149277_j83769042141907_2_alg».proof.Proof.Entry

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- At the ideal values the sampled weights are the specification's. -/
theorem sampled_ideal (a b e : S4096x4096.Idx → EReal) : sampled (F := Ideal) a b e = Cert.Layer.weight a b e := rfl

/-- At the ideal values narrowing changes nothing. -/
theorem narrowed_ideal (x : S4096x4096.Idx → EReal) : narrowed (F := Ideal) x = x := rfl

/-- A vector reshaped to a [1, 4096] row and read back as a vector is the vector. -/
theorem rowOf_reshape (v : S4096.Idx → EReal) : rowOf (shapeCast S1x4096 v shapeCasts_S4096_S1x4096) = v := by
  funext o
  unfold rowOf
  refine shapeCast_apply v shapeCasts_S4096_S1x4096 _ o ?_
  rw [Shape.rowMajor_val_one, Shape.rowMajor_val_two]
  show (o 0).val = 0 * 4096 + (o 0).val
  omega

/-- The result array at the end of the run is the layer of the arguments as launched. -/
theorem kernel_value (c : Dev nD) :
    W4 m ρ c (Proc.devRef .tc main_v7)
      = Cert.Layer.layer (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [out_eq_arrAt, arr2 (V3 m ρ) c, entry_x, entry_weights, entry_bias]
  funext z
  unfold gemm Cert.Layer.layer
  rw [sampled_ideal, narrowed_ideal, rowOf_reshape]
  rfl

end Cert.KernelIdeal.Val

end
-- ==== Proof.RefValue.lean ====
/-
  The reference's result, as the layer of its arguments.

  jnp computes  einsum('ni,oi->no', x, W) + b  with W = w_mu + log1p (exp w_rho) · eps_w and
  b = b_mu + log1p (exp b_rho) · eps_b broadcast along the rows. At the ideal values the host's contraction at
  (n, o) is ∑ k < 4096, x(n, k) · W(o, k), and the two broadcasts read b at o.
-/
import proofs.«149277_j83769042141907_2_alg».proof.Proof.Gen.ReferenceIdeal.Read
import proofs.«149277_j83769042141907_2_alg».proof.Proof.Spec

noncomputable section

namespace Cert.ReferenceIdeal.RefValue

open Idealize.ShloMosaic Idealize.ShloMosaic.ValueIdx
open Cert.ReferenceIdeal Cert.ReferenceIdeal.Read

/-- The reference's result stage is the layer. -/
theorem ref_is_layer (x0 x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v11 (F := Ideal) x0 x1 x2 x3 x4 x5 x6 = Cert.Layer.layer x0 x1 x2 x3 x4 x5 x6 := by
  funext i
  have el : ∀ k : Fin 4096, lidx_main_v8 i k = ix2 (⟨(i 0).val, idx2_lt0 i⟩ : Fin 4096) k :=
    fun k => funext fun a => by match a with | ⟨0, _⟩ => rfl | ⟨1, _⟩ => rfl
  have er : ∀ k : Fin 4096, ridx_main_v8 i k = ix2 (⟨(i 1).val, idx2_lt1 i⟩ : Fin 4096) k :=
    fun k => funext fun a => by match a with | ⟨0, _⟩ => rfl | ⟨1, _⟩ => rfl
  have eb : idx_main_v9 (idx_main_v10 i) = ix1 (⟨(i 1).val, idx2_lt1 i⟩ : Fin 4096) :=
    funext fun a => by match a with | ⟨0, _⟩ => rfl
  rw [val_main_v11_apply, val_main_v8_apply, val_main_v10_apply, val_main_v9_apply]
  simp only [el, er, eb]
  rfl

end Cert.ReferenceIdeal.RefValue

end
-- ==== Proof.lean ====
/-
  A Bayesian linear layer: the weights and the bias are sampled as  mean + log (1 + exp rho) · noise,  and the
  result is  x · Wᵀ + b  over [4096, 4096] arrays.

  The kernel samples the weights block by block in one pipeline, narrows x to bf16 in a second, samples the bias on
  the host, and in a third pipeline contracts the 4096 terms of each entry in four runs of 1024 accumulated from
  zero in the output block, adding the bias after the last run. The reference samples both on the host and contracts
  with one einsum.

  Over the extended reals (narrowing is the identity, every operation exact) both programs end with
      (∑ k < 4096, x(n, k) · W(o, k)) + b(o)      at every (n, o):
  the four partial sums accumulated from zero are the whole sum because addition of extended reals is commutative and
  associative; no entry needs to be finite for that, so the precondition is not used. The ideal pass rewrote
  nothing, so the idealization conjunct is trivial; the three frames are the kernels' generated frames and the
  reference's run with its result dropped.
-/
import proofs.«149277_j83769042141907_2_alg».proof.Defs
import proofs.«149277_j83769042141907_2_alg».proof.Proof.Gen.Kernel
import proofs.«149277_j83769042141907_2_alg».proof.Proof.Gen.Kernel.Frame
import proofs.«149277_j83769042141907_2_alg».proof.Proof.Gen.KernelIdeal
import proofs.«149277_j83769042141907_2_alg».proof.Proof.Gen.KernelIdeal.Frame
import proofs.«149277_j83769042141907_2_alg».proof.Proof.Gen.ReferenceIdeal
import proofs.«149277_j83769042141907_2_alg».proof.Proof.Gen.Pre_finite_inputs
import proofs.«149277_j83769042141907_2_alg».proof.Proof.Gen.ReferenceIdeal.Run
import proofs.«149277_j83769042141907_2_alg».proof.Proof.Gen.ReferenceIdeal.Read
import proofs.«149277_j83769042141907_2_alg».proof.Proof.KValue
import proofs.«149277_j83769042141907_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of arguments that agree. -/
theorem algebraic : Cert.algebraic_KernelIdeal_ReferenceIdeal := by
  intro m ρ m' ρ' _ hagree
  refine ⟨fun c => Cert.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.kernel_value m ρ c), (h c).2⟩)
      (Cert.KernelIdeal.Val.run_out (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, Cert.ReferenceIdeal.RefValue.ref_is_layer,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
